-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  main_v3
-- ==== Kernel.lean ====
abbrev S64x3x512x512 : Shape := ⟨4, ![64, 3, 512, 512]⟩
abbrev S1x1x512x512 : Shape := ⟨4, ![1, 1, 512, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 2
  | .vmem => 4
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![64, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  broadcasts_S1x1_S512x512 : S1x1.Broadcasts S512x512
  shapeCasts_S512x512_S1x1x512x512 : S512x512.ShapeCasts S1x1x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S64x3x512x512.size a
  hwx0_0 : ∀ i : grid0.Coords, EltTy.bits .f32 = 32 ∨ (Rect.block (s := S64x3x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S64x3x512x512.size a
  hwx0_1 : ∀ i : grid0.Coords, EltTy.bits .f32 = 32 ∨ (Rect.block (s := S64x3x512x512) S1x1x512x512.size (cc0_transform_1 i) (hinb0_1 i)).WholeWords (EltTy.packing .f32)

variable [Facts₀]

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x3x512x512 : Shape := ⟨4, ![64, 3, 512, 512]⟩
abbrev S_ : Shape := ⟨0, ![]⟩
abbrev S64x3 : Shape := ⟨2, ![64, 3]⟩
abbrev S64x3x1x1 : Shape := ⟨4, ![64, 3, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S_, .f32⟩
  | .hbm, ⟨2, _⟩ => ⟨S64x3, .f32⟩
  | .hbm, ⟨3, _⟩ => ⟨S64x3x1x1, .f32⟩
  | .hbm, ⟨4, _⟩ => ⟨S_, .f32⟩
  | .hbm, ⟨5, _⟩ => ⟨S64x3x1x1, .f32⟩
  | .hbm, ⟨6, _⟩ => ⟨S64x3x1x1, .f32⟩
  | .hbm, ⟨7, _⟩ => ⟨S64x3x512x512, .f32⟩
  | .hbm, ⟨8, _⟩ => ⟨S64x3x512x512, .f32⟩
  | .hbm, ⟨9, _⟩ => ⟨S64x3x512x512, .f32⟩
  | .hbm, ⟨10, _⟩ => ⟨S_, .f32⟩
  | .hbm, ⟨11, _⟩ => ⟨S64x3, .f32⟩
  | .hbm, ⟨12, _⟩ => ⟨S64x3x1x1, .f32⟩
  | .hbm, ⟨13, _⟩ => ⟨S_, .f32⟩
  | .hbm, ⟨14, _⟩ => ⟨S64x3x1x1, .f32⟩
  | .hbm, ⟨15, _⟩ => ⟨S64x3x1x1, .f32⟩
  | .hbm, ⟨16, _⟩ => ⟨S64x3x1x1, .f32⟩
  | .hbm, ⟨17, _⟩ => ⟨S_, .f32⟩
  | .hbm, ⟨18, _⟩ => ⟨S64x3x1x1, .f32⟩
  | .hbm, ⟨19, _⟩ => ⟨S64x3x1x1, .f32⟩
  | .hbm, ⟨20, _⟩ => ⟨S64x3x512x512, .f32⟩
  | .hbm, ⟨21, _⟩ => ⟨S64x3x512x512, .f32⟩
  | .hbm, ⟨22, _⟩ => ⟨S64x3x512x512, .f32⟩
  | .hbm, ⟨23, _⟩ => ⟨S64x3x512x512, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  reducesTo_S64x3x512x512_S64x3_d2_3 : S64x3x512x512.ReducesTo [2, 3] S64x3
  h_S_ : 0 < S_.numel
  bcast_S64x3_S64x3x1x1_0_1 : S64x3.BroadcastsInDim S64x3x1x1 (![0, 1] : Fin 2 → Fin S64x3x1x1.rank)
  bcast_S_S64x3x1x1 : S_.BroadcastsInDim S64x3x1x1 (![] : Fin 0 → Fin S64x3x1x1.rank)
  bcast_S64x3x1x1_S64x3x512x512_0_1_2_3 : S64x3x1x1.BroadcastsInDim S64x3x512x512 (![0, 1, 2, 3] : Fin 4 → Fin S64x3x512x512.rank)

variable [Facts₀]

class Facts : Prop extends Facts₀ where

variable [Facts]
-- ==== Proof.ImageNorm.lean ====
/-
  Per-image normalization, as one function of the whole input.

  The input is a stack of `A × B` images, each a 512 × 512 grid of extended reals. For one image `(n, c)`:

    total x n c      the sum of its 262144 entries, rows first and then along each row;
    mean x n c       that sum divided by 262144;
    centered x i     the entry at `i` minus the mean of its image;
    sumSq x n c      the sum over the image of the squares of the centered entries;
    spread x n c     the square root of `sumSq / 262143` (the unbiased variance) plus a small positive constant;
    normalized x i   the centered entry at `i` divided by the spread of its image.

  The three constants are kept as the 32-bit words both programs print (262144.0, 262143.0 and the f32 nearest to 1e-8):
  the same word on both sides is never evaluated.

  Everything an image's result depends on is that image's own entries (`normalized_of_image_eq`): two stacks that agree on
  one image each give it the same normalized entries, whatever the other images hold and however many of them there are.
  This is what lets one 1 × 1 stack — a single image, the block a grid point works on — stand for image `(n, c)` of the
  64 × 3 stack.
-/
import Idealize.ShloMosaic.PureOps.Ideal
import Idealize.ShloMosaic.Lib.ValueIdx

noncomputable section

open scoped BigOperators

namespace Cert.ImageNorm

open Idealize.ShloMosaic Idealize.ShloMosaic.ValueIdx

/-- A stack of `A × B` images of 512 × 512 extended reals. -/
abbrev Stack (A B : Nat) : Type := (⟨4, ![A, B, 512, 512]⟩ : Shape).Idx → EReal

variable {A B A' B' : Nat}

/-- The sum of image `(n, c)`: over its rows, of the sum along each row. -/
def total (x : Stack A B) (n : Fin A) (c : Fin B) : EReal := ∑ h : Fin 512, ∑ w : Fin 512, x (ix4 n c h w)

/-- The mean of image `(n, c)`: its sum over 262144. -/
def mean (x : Stack A B) (n : Fin A) (c : Fin B) : EReal := Ideal.div (total x n c) (Ideal.ofBits .f32 0x48800000#32)

/-- Each entry minus the mean of its image. -/
def centered (x : Stack A B) : Stack A B := fun i => x i - mean x (i 0) (i 1)

/-- The sum over image `(n, c)` of the squared centered entries. -/
def sumSq (x : Stack A B) (n : Fin A) (c : Fin B) : EReal := total (fun i => centered x i * centered x i) n c

/-- The unbiased standard deviation of image `(n, c)` (divisor 262143), plus the small constant that keeps the quotient defined. -/
def spread (x : Stack A B) (n : Fin A) (c : Fin B) : EReal :=
  Ideal.sqrt (Ideal.div (sumSq x n c) (Ideal.ofBits .f32 0x487FFFC0#32)) + Ideal.ofBits .f32 0x322BCC77#32

/-- The normalized stack: each centered entry over the spread of its image. -/
def normalized (x : Stack A B) : Stack A B := fun i => Ideal.div (centered x i) (spread x (i 0) (i 1))

section Locality

variable (x : Stack A B) (x' : Stack A' B') (n : Fin A) (c : Fin B) (n' : Fin A') (c' : Fin B')
variable (hx : ∀ (h w : Fin 512), x' (ix4 n' c' h w) = x (ix4 n c h w))
include hx

/-- Two stacks that agree on one image each give that image the same sum. -/
theorem total_of_image_eq : total x' n' c' = total x n c :=
  Finset.sum_congr rfl fun h _ => Finset.sum_congr rfl fun w _ => hx h w

theorem mean_of_image_eq : mean x' n' c' = mean x n c := by
  unfold mean; rw [total_of_image_eq x x' n c n' c' hx]

theorem centered_of_image_eq (h w : Fin 512) : centered x' (ix4 n' c' h w) = centered x (ix4 n c h w) := by
  show x' (ix4 n' c' h w) - mean x' n' c' = x (ix4 n c h w) - mean x n c
  rw [hx h w, mean_of_image_eq x x' n c n' c' hx]

theorem sumSq_of_image_eq : sumSq x' n' c' = sumSq x n c :=
  total_of_image_eq _ _ n c n' c' fun h w => by
    show centered x' (ix4 n' c' h w) * centered x' (ix4 n' c' h w) = centered x (ix4 n c h w) * centered x (ix4 n c h w)
    rw [centered_of_image_eq x x' n c n' c' hx h w]

theorem spread_of_image_eq : spread x' n' c' = spread x n c := by
  unfold spread; rw [sumSq_of_image_eq x x' n c n' c' hx]

/-- Two stacks that agree on one image each give that image the same normalized entries. -/
theorem normalized_of_image_eq (h w : Fin 512) : normalized x' (ix4 n' c' h w) = normalized x (ix4 n c h w) := by
  show Ideal.div (centered x' (ix4 n' c' h w)) (spread x' n' c') = Ideal.div (centered x (ix4 n c h w)) (spread x n c)
  rw [centered_of_image_eq x x' n c n' c' hx h w, spread_of_image_eq x x' n c n' c' hx]

end Locality

end Cert.ImageNorm

end
-- ==== Proof.LibImageSums.lean ====
/-
  Sums over the two trailing axes of an array of extended reals, read as a double sum over coordinates.

  A two-dimensional sum reaches a program in two shapes. A vector unit cannot reduce both trailing axes at once, so a
  kernel sums an `a × b` matrix along its rows, sets the `a` row sums up as a column `[a, 1]`, and sums that column
  (`multiReduction_rows_then_column`). The host sums a rank-4 array `[A, B, H, W]` over its last two axes in one
  reduction into `[A, B]` (`hostReduceAdd_last_two`). Both are the sum over the row coordinate of the sum over the
  column coordinate of the entries: the first because the column cast only relabels the row sums, the second because
  the indices `(n, c, ·, ·)` that drop to `(n, c)` are exactly the pairs of trailing coordinates. Addition of extended
  reals is associative and commutative, so no finiteness is asked of the entries.
-/
import Idealize.ShloMosaic.PureOps.Ideal.Laws
import Idealize.ShloMosaic.Lib.ValueIdx
import Idealize.ShloMosaic.Lib.Pipeline.Value

noncomputable section

open scoped BigOperators

namespace Idealize.ShloMosaic.ImageSums

open Idealize.ShloMosaic Idealize.ShloMosaic.ValueIdx

/-- An `a × b` matrix summed along its rows, the row sums cast to a column, the column summed: at the one index of the
    result, the sum of all entries, rows first. -/
theorem multiReduction_rows_then_column {a b : ℕ} {φ : FTy} (v : FVec Ideal ⟨2, ![a, b]⟩ φ) (acc acc' : BitVec φ.bits)
    (hrow : (⟨2, ![a, b]⟩ : Shape).Reduces [1] ⟨1, ![a]⟩) (hcast : (⟨1, ![a]⟩ : Shape).ShapeCasts ⟨2, ![a, 1]⟩)
    (hcol : (⟨2, ![a, 1]⟩ : Shape).Reduces [0] ⟨1, ![1]⟩) (hφ : FKind.Formats φ)
    (hacc : acc = FKind.add.neutral φ hφ) (hacc' : acc' = FKind.add.neutral φ hφ) (j : (⟨1, ![1]⟩ : Shape).Idx) :
    multiReduction .add [0] ⟨1, ![1]⟩ (shapeCast ⟨2, ![a, 1]⟩ (multiReduction .add [1] ⟨1, ![a]⟩ v acc hrow hφ hacc) hcast)
        acc' hcol hφ hacc' j
      = ∑ h : Fin a, ∑ w : Fin b, v (ix2 h w) := by
  refine (Ideal.multiReduction_add_single _ acc' hcol hφ hacc' j).trans ?_
  refine Finset.sum_congr rfl fun (h : Fin a) _ => ?_
  have e : hcol.lift j h = ix2 h (j 0) := by
    funext c; match c with | ⟨0, _⟩ => rfl | ⟨1, _⟩ => rfl
  rw [e]
  refine (shapeCast_apply _ hcast (ix2 h (j 0)) (ix1 h) (by
    have hlt : (j 0).val < 1 := (j 0).isLt
    have hu : (j 0).val = 0 := by omega
    rw [Shape.rowMajor_val_two, Shape.rowMajor_val_one]
    show h.val = h.val * 1 + (j 0).val
    rw [hu, Nat.mul_one, Nat.add_zero])).trans ?_
  refine (Ideal.multiReduction_add_single v acc hrow hφ hacc (ix1 h)).trans ?_
  refine Finset.sum_congr rfl fun (w : Fin b) _ => ?_
  refine congrArg v ?_
  funext c; match c with | ⟨0, _⟩ => rfl | ⟨1, _⟩ => rfl

/-- Dropping the last two axes of a rank-4 index keeps its first two coordinates. -/
theorem drop_last_two_val {A B H W : ℕ} (hred : (⟨4, ![A, B, H, W]⟩ : Shape).ReducesTo [2, 3] ⟨2, ![A, B]⟩)
    (i : (⟨4, ![A, B, H, W]⟩ : Shape).Idx) : (hred.drop i 0).val = (i 0).val ∧ (hred.drop i 1).val = (i 1).val :=
  ⟨rfl, rfl⟩

/-- The host's sum of a rank-4 array over its last two axes, at `(n, c)`: the initial value plus the sum over the two
    trailing coordinates of the entries `(n, c, h, w)`. -/
theorem hostReduceAdd_last_two {A B H W : ℕ} (hred : (⟨4, ![A, B, H, W]⟩ : Shape).ReducesTo [2, 3] ⟨2, ![A, B]⟩)
    (x : (⟨4, ![A, B, H, W]⟩ : Shape).Idx → EReal) (init : EReal) (n : Fin A) (c : Fin B) :
    Ideal.hostReduceAdd hred x init (ix2 n c) = init + ∑ h : Fin H, ∑ w : Fin W, x (ix4 n c h w) := by
  unfold Ideal.hostReduceAdd
  refine congrArg (init + ·) ?_
  rw [← Fintype.sum_prod_type' (f := fun (h : Fin H) (w : Fin W) => x (ix4 n c h w))]
  refine Finset.sum_nbij' (fun i => ((i 2 : Fin H), (i 3 : Fin W))) (fun p => ix4 n c p.1 p.2) ?_ ?_ ?_ ?_ ?_
  · intro i _; exact Finset.mem_univ _
  · intro p _
    refine Finset.mem_filter.2 ⟨Finset.mem_univ _, ?_⟩
    funext d; apply Fin.ext
    match d with
    | ⟨0, _⟩ => exact (drop_last_two_val hred (ix4 n c p.1 p.2)).1
    | ⟨1, _⟩ => exact (drop_last_two_val hred (ix4 n c p.1 p.2)).2
  · intro i hi
    have hj := (Finset.mem_filter.1 hi).2
    have h0 : (i 0).val = n.val := (drop_last_two_val hred i).1.symm.trans (congrArg (fun q : (⟨2, ![A, B]⟩ : Shape).Idx => (q 0).val) hj)
    have h1 : (i 1).val = c.val := (drop_last_two_val hred i).2.symm.trans (congrArg (fun q : (⟨2, ![A, B]⟩ : Shape).Idx => (q 1).val) hj)
    funext d; apply Fin.ext
    match d with
    | ⟨0, _⟩ => exact h0.symm
    | ⟨1, _⟩ => exact h1.symm
    | ⟨2, _⟩ => rfl
    | ⟨3, _⟩ => rfl
  · intro p _; rfl
  · intro i hi
    have hj := (Finset.mem_filter.1 hi).2
    have h0 : (i 0).val = n.val := (drop_last_two_val hred i).1.symm.trans (congrArg (fun q : (⟨2, ![A, B]⟩ : Shape).Idx => (q 0).val) hj)
    have h1 : (i 1).val = c.val := (drop_last_two_val hred i).2.symm.trans (congrArg (fun q : (⟨2, ![A, B]⟩ : Shape).Idx => (q 1).val) hj)
    refine congrArg x ?_
    funext d; apply Fin.ext
    match d with
    | ⟨0, _⟩ => exact h0
    | ⟨1, _⟩ => exact h1
    | ⟨2, _⟩ => rfl
    | ⟨3, _⟩ => rfl

end Idealize.ShloMosaic.ImageSums

end
-- ==== Proof.LibKeepdims.lean ====
/-
  Keepdims layouts read at an index given by coordinates.

  A sum taken with `keepdims=True` leaves a unit axis where the summed axis was, so a kernel that brings a matrix down
  to a 1×1 cell one axis at a time passes through the column shapes: a vector `[a]` is made a column `[a, 1]`, a
  column is read back as a vector, laid as a row `[1, a]`, or broadcast across `b` columns. Each lemma reads one of
  these at an index written with `ix1` / `ix2`. The reason is the same every time: the unit coordinate `u : Fin 1`
  is `0`, so the row-major position of `(i, u)` in `[a, 1]` is `i · 1 + 0 = i`, the position of `i` in `[a]`
  and of `(0, i)` in `[1, a]`.

  These complete the leading-unit-axis forms of Lib/ValueLayout.lean (`shapeCast_a_1a_apply`, `shapeCast_1a_a_apply`,
  `broadcastTo_1b_ab_apply`) on the trailing side.
-/
import Idealize.ShloMosaic.Lib.ValueLayout

namespace Idealize.ShloMosaic.KeepdimsLayout

open Idealize.ShloMosaic Idealize.ShloMosaic.ValueIdx

variable {α : Type}

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` cast to a row `[1, a]` reads, at `(u, i)`, the operand at `(i, 0)`: the transpose of a
    column costs nothing, both lay the `a` entries out in order. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A row `[1, a]` cast to a column `[a, 1]` reads, at `(i, u)`, the operand at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.mul_one, Nat.add_zero, Nat.zero_mul, Nat.zero_add])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry vector `[1]` cast to a cell `[1, 1]` reads, anywhere, the operand's entry: the last step of a matrix
    summed down to one cell. -/
theorem shapeCast_1_11_apply (x : (⟨1, ![1]⟩ : Shape).Idx → α) (h : (⟨1, ![1]⟩ : Shape).ShapeCasts ⟨2, ![1, 1]⟩)
    (i u : Fin 1) : shapeCast ⟨2, ![1, 1]⟩ x h (ix2 i u) = x (ix1 (0 : Fin 1)) := by
  have hi : i = 0 := Subsingleton.elim _ _
  subst hi
  exact shapeCast_a_a1_apply x h 0 u

end Idealize.ShloMosaic.KeepdimsLayout
-- ==== Proof.BlockValue.lean ====
/-
  What one grid point computes, as a function of the image it loads.

  A grid point loads one image as a 1 × 1 stack `P`, drops the two unit axes to see a 512 × 512 matrix (`mat`), and
  brings a matrix down to one cell in two steps (`cell`): the sum along every row, the 512 row sums set up as a column,
  and the sum of that column — the sum of all 262144 entries, rows first. The cell over 262144 is the mean
  (`meanCell`); it is spread back over the matrix and subtracted (`diff`); the squared differences are brought down to a
  cell the same way, divided by 262143, and the square root plus the small constant (`spreadCell`) is spread back and
  divides the differences. The payload the point stores is exactly this tree of operations (`payload_eq`, by unfolding),
  and read entry by entry it is `normalized P` of the 1 × 1 stack (`payload_apply`): each layout step only relabels
  entries, the two-step sum is `total`, and every arithmetic step is the extended reals' own.
-/
import proofs.«134389_j46136538694219_1_alg».proof.Proof.Gen.KernelIdeal.Skeleton
import proofs.«134389_j46136538694219_1_alg».proof.Proof.ImageNorm
import proofs.«134389_j46136538694219_1_alg».proof.Proof.LibImageSums
import proofs.«134389_j46136538694219_1_alg».proof.Proof.LibKeepdims
import Idealize.ShloMosaic.Lib.ValueIdx
import Idealize.ShloMosaic.Lib.Pipeline.Value

noncomputable section

open scoped BigOperators

namespace Cert.KernelIdeal.BlockValue

open Cert.KernelIdeal Cert.KernelIdeal.Gen Idealize.ShloMosaic Idealize.ShloMosaic.ValueIdx
open Idealize.ShloMosaic.KeepdimsLayout Idealize.ShloMosaic.ImageSums Cert.ImageNorm

/-- The loaded image seen as a 512 × 512 matrix. -/
def mat (P : Vec Ideal S1x1x512x512 .f32) : FVec Ideal S512x512 .f32 :=
  shapeCast S512x512 P shapeCasts_S1x1x512x512_S512x512

/-- A matrix brought down to one cell: summed along its rows, the row sums as a column, the column summed. -/
def cell (v : FVec Ideal S512x512 .f32) : FVec Ideal S1 .f32 :=
  multiReduction .add [0] S1 (shapeCast S512x1 (multiReduction .add [1] S512 v 0x00000000#32 reduces_S512x512_S512 (.inl rfl) rfl)
    shapeCasts_S512_S512x1) 0x00000000#32 reduces_S512x1_S1 (.inl rfl) rfl

/-- A 1 × 1 cell spread over the whole matrix. -/
def spreadOut (u : FVec Ideal S1x1 .f32) : FVec Ideal S512x512 .f32 := broadcastTo S512x512 u broadcasts_S1x1_S512x512

/-- The mean, as a 1 × 1 cell. -/
def meanCell (P : Vec Ideal S1x1x512x512 .f32) : FVec Ideal S1x1 .f32 :=
  divf (shapeCast S1x1 (cell (mat P)) shapeCasts_S1_S1x1) (broadcast S1x1 (Scalar.ofBits .f32 0x48800000#32))

/-- The matrix minus its mean. -/
def diff (P : Vec Ideal S1x1x512x512 .f32) : FVec Ideal S512x512 .f32 := subf (mat P) (spreadOut (meanCell P))

/-- The unbiased standard deviation plus the small constant, as a 1 × 1 cell. -/
def spreadCell (P : Vec Ideal S1x1x512x512 .f32) : FVec Ideal S1x1 .f32 :=
  addf (sqrt (divf (shapeCast S1x1 (cell (mulf (diff P) (diff P))) shapeCasts_S1_S1x1) (broadcast S1x1 (Scalar.ofBits .f32 0x487FFFC0#32))))
    (broadcast S1x1 (Scalar.ofBits .f32 0x322BCC77#32))

/-- The stored payload is the differences over the spread-out deviation, with the two unit axes put back. -/
theorem payload_eq (P : Vec Ideal S1x1x512x512 .f32) :
    k0_pay1 (F := Ideal) P = shapeCast S1x1x512x512 (divf (diff P) (spreadOut (spreadCell P))) shapeCasts_S512x512_S1x1x512x512 := rfl

/-- Entry `(h, w)` of the matrix is entry `(0, 0, h, w)` of the loaded stack. -/
theorem mat_apply (P : Vec Ideal S1x1x512x512 .f32) (h w : Fin 512) :
    mat P (ix2 h w) = P (ix4 (0 : Fin 1) (0 : Fin 1) h w) :=
  shapeCast_apply P shapeCasts_S1x1x512x512_S512x512 (ix2 h w) (ix4 (0 : Fin 1) (0 : Fin 1) h w) (by
    rw [Shape.rowMajor_val_four, Shape.rowMajor_val_two]
    show ((0 * 1 + 0) * 512 + h.val) * 512 + w.val = h.val * 512 + w.val
    omega)

/-- The one cell holds the sum of all entries, rows first. -/
theorem cell_apply (v : FVec Ideal S512x512 .f32) (j : S1.Idx) : cell v j = ∑ h : Fin 512, ∑ w : Fin 512, v (ix2 h w) :=
  multiReduction_rows_then_column v 0x00000000#32 0x00000000#32 reduces_S512x512_S512 shapeCasts_S512_S512x1 reduces_S512x1_S1
    (.inl rfl) rfl rfl j

/-- A spread-out cell reads the cell's one entry everywhere. -/
theorem spreadOut_apply (u : FVec Ideal S1x1 .f32) (h w : Fin 512) : spreadOut u (ix2 h w) = u (ix2 (0 : Fin 1) (0 : Fin 1)) :=
  broadcastTo_apply u broadcasts_S1x1_S512x512 (ix2 h w) (ix2 (0 : Fin 1) (0 : Fin 1)) fun a => match a with
    | ⟨0, _⟩ => by show 0 = (if (1 : Nat) = 1 then 0 else h.val); rw [if_pos rfl]
    | ⟨1, _⟩ => by show 0 = (if (1 : Nat) = 1 then 0 else w.val); rw [if_pos rfl]

/-- The mean cell holds the mean of the image. -/
theorem meanCell_apply (P : Vec Ideal S1x1x512x512 .f32) :
    meanCell P (ix2 (0 : Fin 1) (0 : Fin 1)) = mean (A := 1) (B := 1) P 0 0 := by
  show Ideal.div (shapeCast S1x1 (cell (mat P)) shapeCasts_S1_S1x1 (ix2 (0 : Fin 1) (0 : Fin 1))) (Ideal.ofBits .f32 0x48800000#32)
    = Ideal.div (total (A := 1) (B := 1) P 0 0) (Ideal.ofBits .f32 0x48800000#32)
  refine congrArg (Ideal.div · (Ideal.ofBits .f32 0x48800000#32)) ?_
  refine (shapeCast_1_11_apply (cell (mat P)) shapeCasts_S1_S1x1 0 0).trans ?_
  refine (cell_apply (mat P) _).trans ?_
  exact Finset.sum_congr rfl fun h _ => Finset.sum_congr rfl fun w _ => mat_apply P h w

/-- The difference at `(h, w)` is the centered entry `(0, 0, h, w)`. -/
theorem diff_apply (P : Vec Ideal S1x1x512x512 .f32) (h w : Fin 512) :
    diff P (ix2 h w) = centered (A := 1) (B := 1) P (ix4 (0 : Fin 1) (0 : Fin 1) h w) := by
  show mat P (ix2 h w) - spreadOut (meanCell P) (ix2 h w) = P (ix4 (0 : Fin 1) (0 : Fin 1) h w) - mean (A := 1) (B := 1) P 0 0
  rw [mat_apply, spreadOut_apply, meanCell_apply]

/-- The deviation cell holds the spread of the image. -/
theorem spreadCell_apply (P : Vec Ideal S1x1x512x512 .f32) :
    spreadCell P (ix2 (0 : Fin 1) (0 : Fin 1)) = spread (A := 1) (B := 1) P 0 0 := by
  show Ideal.sqrt (Ideal.div (shapeCast S1x1 (cell (mulf (diff P) (diff P))) shapeCasts_S1_S1x1 (ix2 (0 : Fin 1) (0 : Fin 1)))
        (Ideal.ofBits .f32 0x487FFFC0#32)) + Ideal.ofBits .f32 0x322BCC77#32
    = Ideal.sqrt (Ideal.div (sumSq (A := 1) (B := 1) P 0 0) (Ideal.ofBits .f32 0x487FFFC0#32)) + Ideal.ofBits .f32 0x322BCC77#32
  refine congrArg (fun s => Ideal.sqrt (Ideal.div s (Ideal.ofBits .f32 0x487FFFC0#32)) + Ideal.ofBits .f32 0x322BCC77#32) ?_
  refine (shapeCast_1_11_apply (cell (mulf (diff P) (diff P))) shapeCasts_S1_S1x1 0 0).trans ?_
  refine (cell_apply _ _).trans ?_
  show _ = ∑ h : Fin 512, ∑ w : Fin 512, centered (A := 1) (B := 1) P (ix4 (0 : Fin 1) (0 : Fin 1) h w) * centered (A := 1) (B := 1) P (ix4 (0 : Fin 1) (0 : Fin 1) h w)
  refine Finset.sum_congr rfl fun h _ => Finset.sum_congr rfl fun w _ => ?_
  show diff P (ix2 h w) * diff P (ix2 h w) = _
  rw [diff_apply]

/-- THE PAYLOAD, entry by entry: the normalized 1 × 1 stack. -/
theorem payload_apply (P : Vec Ideal S1x1x512x512 .f32) (p q : Fin 512) :
    k0_pay1 (F := Ideal) P (ix4 (0 : Fin 1) (0 : Fin 1) p q) = normalized (A := 1) (B := 1) P (ix4 (0 : Fin 1) (0 : Fin 1) p q) := by
  rw [payload_eq]
  refine (shapeCast_apply _ shapeCasts_S512x512_S1x1x512x512 (ix4 (0 : Fin 1) (0 : Fin 1) p q) (ix2 p q) (by
    rw [Shape.rowMajor_val_two, Shape.rowMajor_val_four]
    show p.val * 512 + q.val = ((0 * 1 + 0) * 512 + p.val) * 512 + q.val
    omega)).trans ?_
  show Ideal.div (diff P (ix2 p q)) (spreadOut (spreadCell P) (ix2 p q))
    = Ideal.div (centered (A := 1) (B := 1) P (ix4 (0 : Fin 1) (0 : Fin 1) p q)) (spread (A := 1) (B := 1) P 0 0)
  rw [diff_apply, spreadOut_apply, spreadCell_apply]

end Cert.KernelIdeal.BlockValue

end
-- ==== Proof.ArrayValue.lean ====
/-
  From what each grid point writes to the whole output array.

  The grid has 64 × 3 points, one per image: the point with block index `(n, c, 0, 0)` fetches image `(n, c)` of the
  input as its block, and writes its result back as image `(n, c)` of the output; the index maps of the two windows are
  the same, and every `(n, c)` is some point's (both decided over the 192 points). A block's entry `(0, 0, h, w)` sits at
  `(n · 1 + 0, c · 1 + 0, 0 · 512 + h, 0 · 512 + w)` of the array. So what a point writes — the normalized 1 × 1 stack
  of its block — is, entry by entry, image `(n, c)` of the normalized 64 × 3 input, because an image's normalized
  entries depend on that image alone (`wrote_eq`). The 192 blocks cover the output array, each index in the block of its
  own image (`cover`), so after the run the output array is the normalized input (`final`, `run`), and the input array
  is as it was.
-/
import proofs.«134389_j46136538694219_1_alg».proof.Proof.Gen.KernelIdeal.Frame
import proofs.«134389_j46136538694219_1_alg».proof.Proof.BlockValue
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.ImageNorm

variable (m : (ℓ : Loc nD τ sig) → Buf (Elt Ideal) ℓ) (ρ : Dev nD → PrngReg)

theorem offset_zero : (![0, 0, 0, 0] : Fin 4 → Nat) = fun _ => 0 := funext fun a => by fin_cases a <;> rfl

/-- The two windows' index maps, decided over the grid: the input block moves with the output block, both stay at the
    origin of the two image axes, and the image coordinates stay in range. -/
theorem index_facts : ∀ t : Fin cfg0.N, win0_0.index t (0 : Fin 4) = win0_1.index t (0 : Fin 4)
    ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) < 64 ∧ win0_1.index t (1 : Fin 4) < 3 :=
  (by decide +kernel : ∀ t : Fin grid0.N, _)

/-- Every image is some point's. -/
theorem index_onto : ∀ (n : Fin 64) (c : Fin 3), ∃ t : Fin cfg0.N, win0_1.index t = ![n.val, c.val, 0, 0] :=
  (by decide +kernel : ∀ (n : Fin 64) (c : Fin 3), ∃ t : Fin grid0.N, win0_1.index t = ![n.val, c.val, 0, 0])

/-- What a point leaves in the output's buffer, at a block index `y`: the normalized input at the array index under `y`. -/
theorem point_eq (c : Dev nD) (t : Fin cfg0.N) (y : S1x1x512x512.Idx) :
    out0_1 (F := Ideal) (iblk m c 0 t) y
      = normalized (A := 64) (B := 3) (V m c main_arg0) (((cfg0.win 1).blk t).view.emb y) := by
  obtain ⟨e0, e1, e2, e3, e4, e5, e6, e7⟩ := index_facts t
  obtain ⟨p, q, rfl⟩ : ∃ p q : Fin 512, y = ix4 (0 : Fin 1) (0 : Fin 1) p q := ⟨y 2, y 3, by
    funext a; apply Fin.ext
    match a with
    | ⟨0, _⟩ => have h0 : (y 0).val < 1 := (y 0).isLt; show (y 0).val = 0; omega
    | ⟨1, _⟩ => have h1 : (y 1).val < 1 := (y 1).isLt; show (y 1).val = 0; omega
    | ⟨2, _⟩ => rfl
    | ⟨3, _⟩ => rfl⟩
  unfold out0_1
  rw [View.canon_unit_zero offset_zero, View.ld_unit_zero (S := S1x1x512x512) offset_zero]
  refine (BlockValue.payload_apply (iblk m c 0 t) p q).trans ?_
  have hout : ((cfg0.win 1).blk t).view.emb (ix4 (0 : Fin 1) (0 : Fin 1) p q)
      = ix4 (⟨win0_1.index t (0 : Fin 4), e6⟩ : Fin 64) (⟨win0_1.index t (1 : Fin 4), e7⟩ : Fin 3) p q := by
    funext a; apply Fin.ext
    match a with
    | ⟨0, _⟩ => show win0_1.index t (0 : Fin 4) * 1 + 1 * 0 = win0_1.index t (0 : Fin 4); omega
    | ⟨1, _⟩ => show win0_1.index t (1 : Fin 4) * 1 + 1 * 0 = win0_1.index t (1 : Fin 4); omega
    | ⟨2, _⟩ => show win0_1.index t (2 : Fin 4) * 512 + 1 * p.val = p.val; omega
    | ⟨3, _⟩ => show win0_1.index t (3 : Fin 4) * 512 + 1 * q.val = q.val; omega
  refine (normalized_of_image_eq (V m c main_arg0) (iblk m c 0 t) (⟨win0_1.index t (0 : Fin 4), e6⟩ : Fin 64)
    (⟨win0_1.index t (1 : Fin 4), e7⟩ : Fin 3) (0 : Fin 1) (0 : Fin 1) (fun h w => ?_) p q).trans (congrArg _ hout.symm)
  show V m c main_arg0 (((cfg0.win 0).blk t).view.emb (ix4 (0 : Fin 1) (0 : Fin 1) h w)) = _
  refine congrArg _ ?_
  funext a; apply Fin.ext
  match a with
  | ⟨0, _⟩ => show win0_0.index t (0 : Fin 4) * 1 + 1 * 0 = win0_1.index t (0 : Fin 4); omega
  | ⟨1, _⟩ => show win0_0.index t (1 : Fin 4) * 1 + 1 * 0 = win0_1.index t (1 : Fin 4); omega
  | ⟨2, _⟩ => show win0_0.index t (2 : Fin 4) * 512 + 1 * h.val = h.val; omega
  | ⟨3, _⟩ => show win0_0.index t (3 : Fin 4) * 512 + 1 * w.val = w.val; omega

/-- WHAT POINT `t` WRITES BACK is block `t` of the normalized input. -/
theorem wrote_eq (c : Dev nD) (t : Fin cfg0.N) :
    (dats m 0 c).flushed 1 t = ((cfg0.win 1).blk t).view.read (Elt Ideal) (normalized (A := 64) (B := 3) (V m c main_arg0)) := by
  show (cfg0.win 1).cut (grid0.coords t) ((dats m 0 c).after 1 t) = _
  rw [after0_1]
  funext j
  exact point_eq m c t j

/-- An index of the output array is in point `t`'s block iff each coordinate is in the block's range on its axis. -/
theorem mem_blk (t : Fin cfg0.N) (i : S64x3x512x512.Idx) :
    i ∈ ((cfg0.win 1).blk t).view.set ↔ ∀ a : Fin 4, win0_1.index t a * S1x1x512x512.size a ≤ (i a).val
      ∧ (i a).val < win0_1.index t a * S1x1x512x512.size a + S1x1x512x512.size a := by
  show i ∈ ((View.whole main_v0).slice (win0_1.rect t)).set ↔ _
  rw [View.set_slice_whole, Rect.mem_set_unit]
  exact Iff.rfl

/-- Every index of the output array is in the block of the point that works on its image. -/
theorem cover (i : S64x3x512x512.Idx) :
    ∃ t : Fin cfg0.N, (cfg0.win 1).flush t = true ∧ i ∈ ((cfg0.win 1).blk t).view.set := by
  have hi0 : (i 0).val < 64 := (i 0).isLt
  have hi1 : (i 1).val < 3 := (i 1).isLt
  have hi2 : (i 2).val < 512 := (i 2).isLt
  have hi3 : (i 3).val < 512 := (i 3).isLt
  obtain ⟨t, ht⟩ := index_onto ⟨(i 0).val, hi0⟩ ⟨(i 1).val, hi1⟩
  have q0 : win0_1.index t (0 : Fin 4) = (i 0).val := congrFun ht 0
  have q1 : win0_1.index t (1 : Fin 4) = (i 1).val := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 1 ≤ (i 1).val ∧ (i 1).val < win0_1.index t (1 : Fin 4) * 1 + 1; omega
  | ⟨2, _⟩ => show win0_1.index t (2 : Fin 4) * 512 ≤ (i 2).val ∧ (i 2).val < win0_1.index t (2 : Fin 4) * 512 + 512; omega
  | ⟨3, _⟩ => show win0_1.index t (3 : Fin 4) * 512 ≤ (i 3).val ∧ (i 3).val < win0_1.index t (3 : Fin 4) * 512 + 512; omega

/-- THE OUTPUT ARRAY after the run is the normalized input. -/
theorem final (c : Dev nD) :
    (dats m 0 c).arrAt 1 cfg0.N = normalized (A := 64) (B := 3) (m ((c : Thread nD τ).loc main_arg0)) :=
  (dats m 0 c).arrAt_eq_of_cover 1 (normalized (A := 64) (B := 3) (V m c main_arg0)) (fun t _ => wrote_eq m c t) cover

/-- The frame run re-posted: the output array at the normalized input, the input array unchanged. -/
theorem run : θ_run defs (onTc (τ := τ) (main (F := Ideal))) ⟨m, fun _ => 0, ρ⟩ fun r => ∀ c : Dev nD,
      r.2.mem ((c : Thread nD τ).loc main_v0) = normalized (A := 64) (B := 3) (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.ArrayValue

end
-- ==== Proof.RefValue.lean ====
/-
  The reference computes the normalized stack.

  The reference sums the whole 64 × 3 stack over its two trailing axes in one host reduction — at `(n, c)` the initial
  value `0` plus the sum over `(h, w)` of the entries `(n, c, h, w)`, that is `total x n c` —, divides by 262144, and
  broadcasts the `[64, 3, 1, 1]` result back over the images: at an index `i` the broadcast reads the value at
  `(i 0, i 1, 0, 0)`, so what is subtracted from `x i` is the mean of `i`'s own image. The squares of the differences go
  through the same reduction, division by 262143, square root, added constant and broadcast, and the quotient of the two
  is `normalized x i`. The host's division and square root are, on the extended reals, the very functions the kernel's
  are, so nothing is left to compare once every operation is read at an index.
-/
import proofs.«134389_j46136538694219_1_alg».proof.Proof.Gen.ReferenceIdeal.Read
import proofs.«134389_j46136538694219_1_alg».proof.Proof.ImageNorm
import proofs.«134389_j46136538694219_1_alg».proof.Proof.LibImageSums
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.ImageSums Cert.ImageNorm

/-- The host's sum over the two trailing axes from the zero word, at `(n, c)`: the sum of image `(n, c)`. -/
theorem sum_images (v : FVec Ideal S64x3x512x512 .f32) (n : Fin 64) (c : Fin 3) :
    Host.reduceAdd (F := Ideal) v (constant (F := Ideal) S_ .f32 0x00000000#32) reducesTo_S64x3x512x512_S64x3_d2_3 h_S_ (ix2 n c)
      = total (A := 64) (B := 3) v n c := by
  show Ideal.hostReduceAdd reducesTo_S64x3x512x512_S64x3_d2_3 v (Ideal.ofBits .f32 0x00000000#32) (ix2 n c) = _
  refine (hostReduceAdd_last_two reducesTo_S64x3x512x512_S64x3_d2_3 v _ n c).trans ?_
  rw [Ideal.ofBits_zero_f32, zero_add]
  rfl

/-- The `[64, 3, 1, 1]` array of means: at `k` the mean of image `(k 0, k 1)`. -/
theorem means_apply (x : FVec Ideal S64x3x512x512 .f32) (k : S64x3x1x1.Idx) :
    val_main_v3 (F := Ideal) x k = mean (A := 64) (B := 3) x (k 0) (k 1) := by
  rw [val_main_v3_apply, val_main_v1_apply, val_main_v2_apply, val_main_cst_0_apply]
  have e : idx_main_v1 k = ix2 (k 0 : Fin 64) (k 1 : Fin 3) := by
    funext a; match a with | ⟨0, _⟩ => rfl | ⟨1, _⟩ => rfl
  rw [e]
  show Ideal.div (Host.reduceAdd (F := Ideal) x (constant (F := Ideal) S_ .f32 0x00000000#32) reducesTo_S64x3x512x512_S64x3_d2_3 h_S_ (ix2 (k 0 : Fin 64) (k 1 : Fin 3)))
      (Ideal.ofBits .f32 0x48800000#32) = Ideal.div (total (A := 64) (B := 3) x (k 0) (k 1)) (Ideal.ofBits .f32 0x48800000#32)
  exact congrArg (Ideal.div · (Ideal.ofBits .f32 0x48800000#32)) (sum_images x (k 0) (k 1))

/-- The first difference `x − mean`, at `i`: the centered entry. -/
theorem diff_apply (x : FVec Ideal S64x3x512x512 .f32) (i : S64x3x512x512.Idx) :
    val_main_v5 (F := Ideal) x i = centered (A := 64) (B := 3) x i := by
  rw [val_main_v5_apply, val_main_v4_apply, means_apply]
  rfl

/-- The second difference (the reference recomputes it for the quotient), at `i`: the centered entry again. -/
theorem diff'_apply (x : FVec Ideal S64x3x512x512 .f32) (i : S64x3x512x512.Idx) :
    val_main_v15 (F := Ideal) x i = centered (A := 64) (B := 3) x i := by
  rw [val_main_v15_apply, val_main_v14_apply, means_apply]
  rfl

/-- The `[64, 3, 1, 1]` array of deviations: at `k` the spread of image `(k 0, k 1)`. -/
theorem spreads_apply (x : FVec Ideal S64x3x512x512 .f32) (k : S64x3x1x1.Idx) :
    val_main_v13 (F := Ideal) x k = spread (A := 64) (B := 3) x (k 0) (k 1) := by
  rw [val_main_v13_apply, val_main_v11_apply, val_main_v10_apply, val_main_v8_apply, val_main_v9_apply, val_main_cst_2_apply,
    val_main_v12_apply, val_main_cst_3_apply]
  have e : idx_main_v8 k = ix2 (k 0 : Fin 64) (k 1 : Fin 3) := by
    funext a; match a with | ⟨0, _⟩ => rfl | ⟨1, _⟩ => rfl
  rw [e]
  show Ideal.sqrt (Ideal.div (Host.reduceAdd (F := Ideal) (val_main_v6 (F := Ideal) x) (constant (F := Ideal) S_ .f32 0x00000000#32)
        reducesTo_S64x3x512x512_S64x3_d2_3 h_S_ (ix2 (k 0 : Fin 64) (k 1 : Fin 3))) (Ideal.ofBits .f32 0x487FFFC0#32)) + Ideal.ofBits .f32 0x322BCC77#32
    = Ideal.sqrt (Ideal.div (sumSq (A := 64) (B := 3) x (k 0) (k 1)) (Ideal.ofBits .f32 0x487FFFC0#32)) + Ideal.ofBits .f32 0x322BCC77#32
  refine congrArg (fun s => Ideal.sqrt (Ideal.div s (Ideal.ofBits .f32 0x487FFFC0#32)) + Ideal.ofBits .f32 0x322BCC77#32) ?_
  refine (sum_images (val_main_v6 (F := Ideal) x) (k 0) (k 1)).trans ?_
  show _ = ∑ h : Fin 512, ∑ w : Fin 512, centered (A := 64) (B := 3) x (ix4 (k 0 : Fin 64) (k 1 : Fin 3) h w) * centered (A := 64) (B := 3) x (ix4 (k 0 : Fin 64) (k 1 : Fin 3) h w)
  refine Finset.sum_congr rfl fun h _ => Finset.sum_congr rfl fun w _ => ?_
  show val_main_v5 (F := Ideal) x _ * val_main_v5 (F := Ideal) x _ = centered (A := 64) (B := 3) x _ * centered (A := 64) (B := 3) x _
  rw [diff_apply]

/-- THE REFERENCE'S RESULT is the normalized stack. -/
theorem result_eq (x : FVec Ideal S64x3x512x512 .f32) : val_main_v17 (F := Ideal) x = normalized (A := 64) (B := 3) x := by
  funext i
  rw [val_main_v17_apply, diff'_apply, val_main_v16_apply, spreads_apply]
  rfl

end Cert.ReferenceIdeal.RefValue

end
-- ==== Proof.lean ====
/-
  Per-image normalization of a [64, 3, 512, 512] stack: the kernel against its jnp reference, over the extended reals.

  Both programs send every 512 × 512 image `(n, c)` of the input `x` to

      (x − μ) / (√(Σ (x − μ)² / 262143) + ε),      μ = (Σ x) / 262144,

  the sums running over the image, `ε` the f32 nearest to 1e-8 (Proof/ImageNorm.lean: `normalized`). The three constants are
  the same 32-bit words in both programs, and division and square root are, on the extended reals, the same functions on
  the vector unit and on the host. What differs is how the two sums are arranged. The kernel gives each image to one grid
  point, which adds up each row, then the 512 row sums (Proof/BlockValue.lean; Proof/ArrayValue.lean carries the 192
  blocks to the whole array). The reference adds all 262144 entries of every image in one reduction over the two trailing
  axes (Proof/RefValue.lean). Both are the double sum over the row and column coordinates (Proof/LibImageSums.lean): only
  associativity and commutativity of addition are used, which hold at the infinities too, so the precondition that the
  input is finite is never opened. The idealized kernel is the kernel's own text read over the extended reals (no
  operation was rewritten), so that conjunct is trivial; the three frame conjuncts are the generated runs.
-/
import proofs.«134389_j46136538694219_1_alg».proof.Defs
import proofs.«134389_j46136538694219_1_alg».proof.Proof.Gen.Kernel
import proofs.«134389_j46136538694219_1_alg».proof.Proof.Gen.Kernel.Skeleton
import proofs.«134389_j46136538694219_1_alg».proof.Proof.Gen.Kernel.Launch
import proofs.«134389_j46136538694219_1_alg».proof.Proof.Gen.Kernel.Points
import proofs.«134389_j46136538694219_1_alg».proof.Proof.Gen.Kernel.Frame
import proofs.«134389_j46136538694219_1_alg».proof.Proof.Gen.KernelIdeal
import proofs.«134389_j46136538694219_1_alg».proof.Proof.Gen.KernelIdeal.Skeleton
import proofs.«134389_j46136538694219_1_alg».proof.Proof.Gen.KernelIdeal.Launch
import proofs.«134389_j46136538694219_1_alg».proof.Proof.Gen.KernelIdeal.Points
import proofs.«134389_j46136538694219_1_alg».proof.Proof.Gen.KernelIdeal.Frame
import proofs.«134389_j46136538694219_1_alg».proof.Proof.Gen.ReferenceIdeal
import proofs.«134389_j46136538694219_1_alg».proof.Proof.Gen.Pre_finite_inputs
import proofs.«134389_j46136538694219_1_alg».proof.Proof.Gen.ReferenceIdeal.Run
import proofs.«134389_j46136538694219_1_alg».proof.Proof.Gen.ReferenceIdeal.Read
import proofs.«134389_j46136538694219_1_alg».proof.Proof.ArrayValue
import proofs.«134389_j46136538694219_1_alg».proof.Proof.RefValue
import Idealize.ShloMosaic.Adequacy
import Idealize.ShloMosaic.Init

noncomputable section

namespace Cert.Proof

open Idealize.ShloMosaic Idealize.SL.Sem Cert.Kernel

/-- The kernel as printed runs to the end and leaves its input as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel and its reading over the extended reals. -/
theorem preserves : Cert.preserves_Kernel_KernelIdeal := trivial

/-- From inputs that agree, both programs end with the normalized input as their result. -/
theorem algebraic : Cert.algebraic_KernelIdeal_ReferenceIdeal := by
  intro m ρ m' ρ' _ hagree
  refine ⟨fun c => Cert.ImageNorm.normalized (A := 64) (B := 3)
      (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
